-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S128x64 : Shape := ⟨2, ![128, 64]⟩
abbrev S50000x16 : Shape := ⟨2, ![50000, 16]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S50000x128 .f32) (main_arg1 : FVec F S128x256 .f32) (main_arg2 : FVec F S128x256 .f32) (main_arg3 : FVec F S128x64 .f32) (main_arg4 : IVec S50000x16 32) (main_arg5 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S50000x128 : Shape := ⟨2, ![50000, 128]⟩
abbrev S128x256 : Shape := ⟨2, ![128, 256]⟩
abbrev S128x64 : Shape := ⟨2, ![128, 64]⟩
abbrev S50000x16 : Shape := ⟨2, ![50000, 16]⟩
abbrev S50000 : Shape := ⟨1, ![50000]⟩
abbrev S_ : Shape := ⟨0, ![]⟩
abbrev S50000x16x1 : Shape := ⟨3, ![50000, 16, 1]⟩
abbrev S50000x16x128 : Shape := ⟨3, ![50000, 16, 128]⟩
abbrev S128x128 : Shape := ⟨2, ![128, 128]⟩
abbrev S2000x128 : Shape := ⟨2, ![2000, 128]⟩
abbrev S50000x1 : Shape := ⟨2, ![50000, 1]⟩
abbrev S50000x64 : Shape := ⟨2, ![50000, 64]⟩
abbrev S2000x64 : Shape := ⟨2, ![2000, 64]⟩

abbrev nBuf : Space → Nat
  | .hbm => 67
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S128x256, .f32⟩
  | .hbm, ⟨3, _⟩ => ⟨S128x64, .f32⟩
  | .hbm, ⟨4, _⟩ => ⟨S50000x16, .i32⟩
  | .hbm, ⟨5, _⟩ => ⟨S50000, .i32⟩
  | .hbm, ⟨6, _⟩ => ⟨S_, .i32⟩
  | .hbm, ⟨7, _⟩ => ⟨S50000x16, .i32⟩
  | .hbm, ⟨8, _⟩ => ⟨S50000x16, .i1⟩
  | .hbm, ⟨9, _⟩ => ⟨S_, .i32⟩
  | .hbm, ⟨10, _⟩ => ⟨S50000x16, .i32⟩
  | .hbm, ⟨11, _⟩ => ⟨S50000x16, .i32⟩
  | .hbm, ⟨12, _⟩ => ⟨S50000x16, .i32⟩
  | .hbm, ⟨13, _⟩ => ⟨S50000x16x1, .i32⟩
  | .hbm, ⟨14, _⟩ => ⟨S50000x16x128, .f32⟩
  | .hbm, ⟨15, _⟩ => ⟨S_, .f32⟩
  | .hbm, ⟨16, _⟩ => ⟨S50000x128, .f32⟩
  | .hbm, ⟨17, _⟩ => ⟨S_, .f32⟩
  | .hbm, ⟨18, _⟩ => ⟨S50000x128, .f32⟩
  | .hbm, ⟨19, _⟩ => ⟨S50000x128, .f32⟩
  | .hbm, ⟨20, _⟩ => ⟨S128x128, .f32⟩
  | .hbm, ⟨21, _⟩ => ⟨S128x128, .f32⟩
  | .hbm, ⟨22, _⟩ => ⟨S128x128, .bf16⟩
  | .hbm, ⟨23, _⟩ => ⟨S128x128, .f32⟩
  | .hbm, ⟨24, _⟩ => ⟨S128x128, .f32⟩
  | .hbm, ⟨25, _⟩ => ⟨S128x128, .bf16⟩
  | .hbm, ⟨26, _⟩ => ⟨S50000x128, .f32⟩
  | .hbm, ⟨27, _⟩ => ⟨S_, .i32⟩
  | .hbm, ⟨28, _⟩ => ⟨S50000, .i32⟩
  | .hbm, ⟨29, _⟩ => ⟨S50000, .i1⟩
  | .hbm, ⟨30, _⟩ => ⟨S_, .i32⟩
  | .hbm, ⟨31, _⟩ => ⟨S50000, .i32⟩
  | .hbm, ⟨32, _⟩ => ⟨S50000, .i32⟩
  | .hbm, ⟨33, _⟩ => ⟨S50000, .i32⟩
  | .hbm, ⟨34, _⟩ => ⟨S50000x1, .i32⟩
  | .hbm, ⟨35, _⟩ => ⟨S50000x16, .i32⟩
  | .hbm, ⟨36, _⟩ => ⟨S_, .i32⟩
  | .hbm, ⟨37, _⟩ => ⟨S50000, .i32⟩
  | .hbm, ⟨38, _⟩ => ⟨S50000, .i1⟩
  | .hbm, ⟨39, _⟩ => ⟨S_, .i32⟩
  | .hbm, ⟨40, _⟩ => ⟨S50000, .i32⟩
  | .hbm, ⟨41, _⟩ => ⟨S50000, .i32⟩
  | .hbm, ⟨42, _⟩ => ⟨S50000, .i32⟩
  | .hbm, ⟨43, _⟩ => ⟨S50000x1, .i32⟩
  | .hbm, ⟨44, _⟩ => ⟨S50000x128, .f32⟩
  | .hbm, ⟨45, _⟩ => ⟨S_, .i32⟩
  | .hbm, ⟨46, _⟩ => ⟨S50000x16, .i32⟩
  | .hbm, ⟨47, _⟩ => ⟨S50000x16, .i1⟩
  | .hbm, ⟨48, _⟩ => ⟨S_, .i32⟩
  | .hbm, ⟨49, _⟩ => ⟨S50000x16, .i32⟩
  | .hbm, ⟨50, _⟩ => ⟨S50000x16, .i32⟩
  | .hbm, ⟨51, _⟩ => ⟨S50000x16, .i32⟩
  | .hbm, ⟨52, _⟩ => ⟨S50000x16x1, .i32⟩
  | .hbm, ⟨53, _⟩ => ⟨S50000x16x128, .f32⟩
  | .hbm, ⟨54, _⟩ => ⟨S_, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S128x128, .f32⟩
  | .hbm, ⟨60, _⟩ => ⟨S128x128, .f32⟩
  | .hbm, ⟨61, _⟩ => ⟨S128x128, .bf16⟩
  | .hbm, ⟨62, _⟩ => ⟨S128x128, .f32⟩
  | .hbm, ⟨63, _⟩ => ⟨S128x128, .f32⟩
  | .hbm, ⟨64, _⟩ => ⟨S128x128, .bf16⟩
  | .hbm, ⟨65, _⟩ => ⟨S128x64, .bf16⟩
  | .hbm, ⟨66, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .bf16⟩
  | .local _ .vmem, ⟨5, _⟩ => ⟨S128x128, .bf16⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .bf16⟩
  | .local _ .vmem, ⟨13, _⟩ => ⟨S128x128, .bf16⟩
  | .local _ .vmem, ⟨14, _⟩ => ⟨S128x64, .bf16⟩
  | .local _ .vmem, ⟨15, _⟩ => ⟨S2000x64, .f32⟩
  | .local _ .vmem, ⟨16, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x128_S50000x128_d1 : S50000x16x128.ReducesTo [1] S50000x128
  h_S_ : 0 < S_.numel
  bcast_S_S50000x128 : S_.BroadcastsInDim S50000x128 (![] : Fin 0 → Fin S50000x128.rank)
  slices_S128x256_S128x128_0_0 : S128x256.Slices ![0, 0] S128x128
  transposes_S128x128_S128x128_1_0 : S128x128.Transposes [1, 0] S128x128
  bitsLt_bf16_f32 : FTy.bits .bf16 < FTy.bits .f32
  slices_S128x256_S128x128_0_128 : S128x256.Slices ![0, 128] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000 : S_.BroadcastsInDim S50000 (![] : Fin 0 → Fin S50000.rank)
  bcast_S50000_S50000x1_0 : S50000.BroadcastsInDim S50000x1 (![0] : Fin 1 → Fin S50000x1.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  gather_S50000x128_S50000x16x1_S50000x16x128_2_0_n_n_0_2_1128_wf : GatherDims.WF S50000x128 S50000x16x1 S50000x16x128 [2] [0] [] [0] [] 2 ![1, 128]
  dot_S2000x128_S128x128_S2000x128_1_0_0_1_n_n_wf : DotDims.WF S2000x128 S128x128 S2000x128 [1] [0] [0] [1] [] []
  gather_S50000x16_S50000x1_S50000x16_1_0_n_n_0_1_116_wf : GatherDims.WF S50000x16 S50000x1 S50000x16 [1] [0] [] [0] [] 1 ![1, 16]
  gather_S50000x128_S50000x1_S50000x128_1_0_n_n_0_1_1128_wf : GatherDims.WF S50000x128 S50000x1 S50000x128 [1] [0] [] [0] [] 1 ![1, 128]
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .bf16 = 32 ∨ (Rect.block (s := S128x64) S128x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def gather_S50000x128_S50000x16x1_S50000x16x128_2_0_n_n_0_2_1128 : GatherDims S50000x128 S50000x16x1 S50000x16x128 where
  offsetDims := [2]
  collapsedSliceDims := [0]
  operandBatchingDims := []
  startIndicesBatchingDims := []
  startIndexMap := [0]
  indexVectorDim := 2
  sliceSizes := ![1, 128]
  wf := gather_S50000x128_S50000x16x1_S50000x16x128_2_0_n_n_0_2_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x16_S50000x1_S50000x16_1_0_n_n_0_1_116 : GatherDims S50000x16 S50000x1 S50000x16 where
  offsetDims := [1]
  collapsedSliceDims := [0]
  operandBatchingDims := []
  startIndicesBatchingDims := []
  startIndexMap := [0]
  indexVectorDim := 1
  sliceSizes := ![1, 16]
  wf := gather_S50000x16_S50000x1_S50000x16_1_0_n_n_0_1_116_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S128x64 : Shape := ⟨2, ![128, 64]⟩
abbrev S50000x16 : Shape := ⟨2, ![50000, 16]⟩
abbrev S50000 : Shape := ⟨1, ![50000]⟩
abbrev S_ : Shape := ⟨0, ![]⟩
abbrev S50000x16x1 : Shape := ⟨3, ![50000, 16, 1]⟩
abbrev S50000x16x128 : Shape := ⟨3, ![50000, 16, 128]⟩
abbrev S50000x256 : Shape := ⟨2, ![50000, 256]⟩
abbrev S256x128 : Shape := ⟨2, ![256, 128]⟩
abbrev S50000x1 : Shape := ⟨2, ![50000, 1]⟩
abbrev S50000x64 : Shape := ⟨2, ![50000, 64]⟩

abbrev nBuf : Space → Nat
  | .hbm => 65
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S128x256, .f32⟩
  | .hbm, ⟨3, _⟩ => ⟨S128x64, .f32⟩
  | .hbm, ⟨4, _⟩ => ⟨S50000x16, .i32⟩
  | .hbm, ⟨5, _⟩ => ⟨S50000, .i32⟩
  | .hbm, ⟨6, _⟩ => ⟨S_, .i32⟩
  | .hbm, ⟨7, _⟩ => ⟨S50000x16, .i32⟩
  | .hbm, ⟨8, _⟩ => ⟨S50000x16, .i1⟩
  | .hbm, ⟨9, _⟩ => ⟨S_, .i32⟩
  | .hbm, ⟨10, _⟩ => ⟨S50000x16, .i32⟩
  | .hbm, ⟨11, _⟩ => ⟨S50000x16, .i32⟩
  | .hbm, ⟨12, _⟩ => ⟨S50000x16, .i32⟩
  | .hbm, ⟨13, _⟩ => ⟨S50000x16x1, .i32⟩
  | .hbm, ⟨14, _⟩ => ⟨S50000x16x128, .f32⟩
  | .hbm, ⟨15, _⟩ => ⟨S_, .f32⟩
  | .hbm, ⟨16, _⟩ => ⟨S50000x128, .f32⟩
  | .hbm, ⟨17, _⟩ => ⟨S_, .f32⟩
  | .hbm, ⟨18, _⟩ => ⟨S50000x128, .f32⟩
  | .hbm, ⟨19, _⟩ => ⟨S50000x128, .f32⟩
  | .hbm, ⟨20, _⟩ => ⟨S50000x256, .f32⟩
  | .hbm, ⟨21, _⟩ => ⟨S256x128, .f32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S_, .i32⟩
  | .hbm, ⟨27, _⟩ => ⟨S50000, .i32⟩
  | .hbm, ⟨28, _⟩ => ⟨S50000, .i1⟩
  | .hbm, ⟨29, _⟩ => ⟨S_, .i32⟩
  | .hbm, ⟨30, _⟩ => ⟨S50000, .i32⟩
  | .hbm, ⟨31, _⟩ => ⟨S50000, .i32⟩
  | .hbm, ⟨32, _⟩ => ⟨S50000, .i32⟩
  | .hbm, ⟨33, _⟩ => ⟨S50000x1, .i32⟩
  | .hbm, ⟨34, _⟩ => ⟨S50000x16, .i32⟩
  | .hbm, ⟨35, _⟩ => ⟨S_, .i32⟩
  | .hbm, ⟨36, _⟩ => ⟨S50000x16, .i32⟩
  | .hbm, ⟨37, _⟩ => ⟨S50000x16, .i1⟩
  | .hbm, ⟨38, _⟩ => ⟨S_, .i32⟩
  | .hbm, ⟨39, _⟩ => ⟨S50000x16, .i32⟩
  | .hbm, ⟨40, _⟩ => ⟨S50000x16, .i32⟩
  | .hbm, ⟨41, _⟩ => ⟨S50000x16, .i32⟩
  | .hbm, ⟨42, _⟩ => ⟨S50000x16x1, .i32⟩
  | .hbm, ⟨43, _⟩ => ⟨S50000x16x128, .f32⟩
  | .hbm, ⟨44, _⟩ => ⟨S_, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S50000, .i32⟩
  | .hbm, ⟨51, _⟩ => ⟨S50000, .i1⟩
  | .hbm, ⟨52, _⟩ => ⟨S_, .i32⟩
  | .hbm, ⟨53, _⟩ => ⟨S50000, .i32⟩
  | .hbm, ⟨54, _⟩ => ⟨S50000, .i32⟩
  | .hbm, ⟨55, _⟩ => ⟨S50000, .i32⟩
  | .hbm, ⟨56, _⟩ => ⟨S50000x1, .i32⟩
  | .hbm, ⟨57, _⟩ => ⟨S50000x128, .f32⟩
  | .hbm, ⟨58, _⟩ => ⟨S50000x256, .f32⟩
  | .hbm, ⟨59, _⟩ => ⟨S256x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call1_cst : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]

class Facts₀ : Prop where
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x128_S50000x128_d1 : S50000x16x128.ReducesTo [1] S50000x128
  h_S_ : 0 < S_.numel
  bcast_S_S50000x128 : S_.BroadcastsInDim S50000x128 (![] : Fin 0 → Fin S50000x128.rank)
  concatenates_S50000x128_S50000x128_S50000x256_d1 : Shape.Concatenates [S50000x128, S50000x128] S50000x256 1
  transposes_S128x256_S256x128_1_0 : S128x256.Transposes [1, 0] S256x128
  bcast_S_S50000 : S_.BroadcastsInDim S50000 (![] : Fin 0 → Fin S50000.rank)
  bcast_S50000_S50000x1_0 : S50000.BroadcastsInDim S50000x1 (![0] : Fin 1 → Fin S50000x1.rank)
  gather_S50000x128_S50000x16x1_S50000x16x128_2_0_n_n_0_2_1128_wf : GatherDims.WF S50000x128 S50000x16x1 S50000x16x128 [2] [0] [] [0] [] 2 ![1, 128]
  dot_S50000x256_S256x128_S50000x128_1_0_0_1_n_n_wf : DotDims.WF S50000x256 S256x128 S50000x128 [1] [0] [0] [1] [] []
  gather_S50000x16_S50000x1_S50000x16_1_0_n_n_0_1_116_wf : GatherDims.WF S50000x16 S50000x1 S50000x16 [1] [0] [] [0] [] 1 ![1, 16]
  gather_S50000x128_S50000x1_S50000x128_1_0_n_n_0_1_1128_wf : GatherDims.WF S50000x128 S50000x1 S50000x128 [1] [0] [] [0] [] 1 ![1, 128]
  dot_S50000x128_S128x64_S50000x64_1_0_0_1_n_n_wf : DotDims.WF S50000x128 S128x64 S50000x64 [1] [0] [0] [1] [] []

variable [Facts₀]

def gather_S50000x128_S50000x16x1_S50000x16x128_2_0_n_n_0_2_1128 : GatherDims S50000x128 S50000x16x1 S50000x16x128 where
  offsetDims := [2]
  collapsedSliceDims := [0]
  operandBatchingDims := []
  startIndicesBatchingDims := []
  startIndexMap := [0]
  indexVectorDim := 2
  sliceSizes := ![1, 128]
  wf := gather_S50000x128_S50000x16x1_S50000x16x128_2_0_n_n_0_2_1128_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x16_S50000x1_S50000x16_1_0_n_n_0_1_116 : GatherDims S50000x16 S50000x1 S50000x16 where
  offsetDims := [1]
  collapsedSliceDims := [0]
  operandBatchingDims := []
  startIndicesBatchingDims := []
  startIndexMap := [0]
  indexVectorDim := 1
  sliceSizes := ![1, 16]
  wf := gather_S50000x16_S50000x1_S50000x16_1_0_n_n_0_1_116_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run, with its result named.

  The program is two pipelined regions among stretches of host operations.  Its run from the launch memory ends with
  every buffer that outlives a region at the contents the last boundary names: the fold of the host stretches and of
  each region's write-backs through the program.  Read at the result buffer this is what the second region's
  write-backs leave in its output array; read at an argument it is the launch contents.
-/
import proofs.«112767_j58420145160634_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result buffer then holds what the last
    boundary's contents name for it, and each argument its launch contents. -/
theorem run_named : θ_run defs (onTc (τ := τ) (main (F := F))) ⟨m, fun _ => 0, ρ⟩ (fun r => ∀ c : Dev nD,
      r.2.mem ((c.tc : Thread nD τ).loc main_v48) = W4 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v48 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Run

end
-- ==== Proof.Sage.lean ====
/-
  One mean-aggregating graph layer on the extended reals, entry by entry.

  A node's hidden activation is the rectified sum of two matrix products: its own feature row against the first
  half of the weight's columns, and the mean row of its neighbours against the second half.  Here the two halves
  arrive already cut out and transposed (`Wa`, `Wb` of extents 128 × 128), so entry `(p, j)` is
  `max (Σ_q X(p,q)·Wa(q,j) + Σ_q Y(p,q)·Wb(q,j)) 0`.  The projection to the output width is one more product,
  `Σ_r H(p,r)·C(r,j)`.  Both are stated for any number of rows.
-/
import Idealize.ShloMosaic.Lib.ValueIdx
import Idealize.ShloMosaic.PureOps.Ideal

noncomputable section

namespace Cert.Sage

open Idealize.ShloMosaic Idealize.ShloMosaic.ValueIdx

/-- Entry `(p, j)` of the hidden activations: the rectified sum of the self product and the neighbour product. -/
def hiddenAt {N : Nat} (X Y : (⟨2, ![N, 128]⟩ : Shape).Idx → EReal) (Wa Wb : (⟨2, ![128, 128]⟩ : Shape).Idx → EReal)
    (p : Fin N) (j : Fin 128) : EReal :=
  max ((∑ q : Fin 128, X (ix2 p q) * Wa (ix2 q j)) + (∑ q : Fin 128, Y (ix2 p q) * Wb (ix2 q j))) 0

/-- The hidden activations as one array of `N` rows. -/
def hidden {N : Nat} (X Y : (⟨2, ![N, 128]⟩ : Shape).Idx → EReal) (Wa Wb : (⟨2, ![128, 128]⟩ : Shape).Idx → EReal) :
    (⟨2, ![N, 128]⟩ : Shape).Idx → EReal :=
  fun i => hiddenAt X Y Wa Wb (i 0) (i 1)

/-- Entry `(p, j)` of the projection of hidden rows to the output width. -/
def projectAt {N : Nat} (H : (⟨2, ![N, 128]⟩ : Shape).Idx → EReal) (C : (⟨2, ![128, 64]⟩ : Shape).Idx → EReal)
    (p : Fin N) (j : Fin 64) : EReal :=
  ∑ r : Fin 128, H (ix2 p r) * C (ix2 r j)

/-- The projection as one array of `N` rows. -/
def project {N : Nat} (H : (⟨2, ![N, 128]⟩ : Shape).Idx → EReal) (C : (⟨2, ![128, 64]⟩ : Shape).Idx → EReal) :
    (⟨2, ![N, 64]⟩ : Shape).Idx → EReal :=
  fun i => projectAt H C (i 0) (i 1)

theorem hidden_apply {N : Nat} (X Y : (⟨2, ![N, 128]⟩ : Shape).Idx → EReal) (Wa Wb : (⟨2, ![128, 128]⟩ : Shape).Idx → EReal)
    (p : Fin N) (j : Fin 128) : hidden X Y Wa Wb (ix2 p j) = hiddenAt X Y Wa Wb p j := rfl

theorem project_apply {N : Nat} (H : (⟨2, ![N, 128]⟩ : Shape).Idx → EReal) (C : (⟨2, ![128, 64]⟩ : Shape).Idx → EReal)
    (p : Fin N) (j : Fin 64) : project H C (ix2 p j) = projectAt H C p j := rfl

end Cert.Sage

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.KernelBody.lean ====
/-
  The two kernel bodies' stored values, read at an entry, at the ideal instance.

  The first body stores, for its block of rows, the rectified sum of two matrix products into zero accumulators:
  entry `(p, j)` is `max (Σ_q x0(p,q)·x2(q,j) + Σ_q x1(p,q)·x3(q,j)) 0`.  The second body computes the same hidden
  block from its own operands and stores its product with a third matrix: entry `(p, j)` is `Σ_r hidden(p,r)·x4(r,j)`.
  A change of float format is the identity on the extended reals, and a product into a zero accumulator is the plain sum.
-/
import proofs.«112767_j58420145160634_2_alg».proof.Proof.Gen.KernelIdeal.Skeleton
import proofs.«112767_j58420145160634_2_alg».proof.Proof.Sage
import proofs.«112767_j58420145160634_2_alg».proof.Proof.LibPlainDot
import Idealize.ShloMosaic.Lib.Pipeline.Value

noncomputable section

namespace Cert.KernelIdeal.Body

open Cert.KernelIdeal Cert.KernelIdeal.Gen Idealize.ShloMosaic Idealize.ShloMosaic.ValueIdx

/-- The rectified sum of two products into zero accumulators, at entry `(p, j)` of a block of 2000 rows. -/
theorem hidden_block (l1 l2 : FVec Ideal S2000x128 .bf16) (r1 r2 : FVec Ideal S128x128 .bf16) (p : Fin 2000) (j : Fin 128) :
    maximumf (addf (matmul dot_S2000x128_S128x128_S2000x128_1_0_0_1_n_n none l1 r1 (constant (F := Ideal) S2000x128 .f32 0x00000000#32))
        (matmul dot_S2000x128_S128x128_S2000x128_1_0_0_1_n_n none l2 r2 (constant (F := Ideal) S2000x128 .f32 0x00000000#32)))
      (broadcast S2000x128 (Scalar.ofBits (F := Ideal) .f32 0x00000000#32)) (ix2 p j)
      = Cert.Sage.hiddenAt l1 l2 r1 r2 p j := by
  have e1 := Cert.PlainDot.matmul_zero_ix2 dot_S2000x128_S128x128_S2000x128_1_0_0_1_n_n rfl none l1 r1 p j
  have e2 := Cert.PlainDot.matmul_zero_ix2 dot_S2000x128_S128x128_S2000x128_1_0_0_1_n_n rfl none l2 r2 p j
  unfold Cert.Sage.hiddenAt
  exact congrArg₂ max (congrArg₂ (· + ·) e1 e2) Ideal.ofBits_zero_f32

/-- The first body's stored value at entry `(p, j)`. -/
theorem pay0_apply (x0 x1 : Vec Ideal S2000x128 .f32) (x2 x3 : Vec Ideal S128x128 .bf16) (p : Fin 2000) (j : Fin 128) :
    k0_pay1 (F := Ideal) x0 x1 x2 x3 (ix2 p j) = Cert.Sage.hiddenAt x0 x1 x2 x3 p j := by
  unfold k0_pay1
  simp only [shapeCast_self]
  exact hidden_block _ _ _ _ p j

/-- The second body's stored value at entry `(p, j)`. -/
theorem pay1_apply (x0 x1 : Vec Ideal S2000x128 .f32) (x2 x3 : Vec Ideal S128x128 .bf16) (x4 : Vec Ideal S128x64 .bf16)
    (p : Fin 2000) (j : Fin 64) :
    k1_pay1 (F := Ideal) x0 x1 x2 x3 x4 (ix2 p j) = Cert.Sage.projectAt (Cert.Sage.hidden x0 x1 x2 x3) x4 p j := by
  unfold k1_pay1
  simp only [shapeCast_self]
  refine (Cert.PlainDot.matmul_zero_ix2 (φ₁ := .bf16) (φ₂ := .bf16) dot_S2000x128_S128x64_S2000x64_1_0_0_1_n_n rfl none _ x4 p j).trans ?_
  unfold Cert.Sage.projectAt
  refine Finset.sum_congr rfl fun r _ => ?_
  refine congrArg (· * x4 (ix2 r j)) ?_
  exact hidden_block _ _ _ _ p r

end Cert.KernelIdeal.Body

end
-- ==== Proof.KernelRegions.lean ====
/-
  What each pipelined region leaves in its output array, as one function of the arrays it finds at entry.

  Both regions walk 25 blocks of 2000 rows.  At block `t` the row windows hold rows `2000·t … 2000·t + 1999` of their
  arrays and the weight windows hold their whole arrays; the body stores a value whose entry `(p, j)` depends only on
  row `p` of the row windows.  So block `t` of the output is the restriction to those rows of ONE whole-array function
  — the hidden activations for the first region, their projection for the second — and since the 25 blocks tile the
  output array, the array ends holding that function.
-/
import proofs.«112767_j58420145160634_2_alg».proof.Proof.Gen.KernelIdeal.Frame
import proofs.«112767_j58420145160634_2_alg».proof.Proof.KernelBody
import Idealize.ShloMosaic.Lib.Pipeline.Value

set_option maxRecDepth 16384

noncomputable section

namespace Cert.KernelIdeal.Regions

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## A block's entry from the arrays' rows -/

/-- The first body's stored value at `y` of block `k` is the hidden activation at the array index `i` over it, when the
    row windows hold rows `2000·k + ·` of `A0`, `A1` and the weight windows all of `A2`, `A3`. -/
theorem block0_entry (A0 A1 : S50000x128.Idx → EReal) (A2 A3 : S128x128.Idx → EReal)
    (x0 x1 : Vec Ideal S2000x128 .f32) (x2 x3 : Vec Ideal S128x128 .bf16) (k : Nat)
    (h0 : ∀ (y : S2000x128.Idx) (i : S50000x128.Idx), (i 0).val = k * 2000 + (y 0).val → (i 1).val = (y 1).val → x0 y = A0 i)
    (h1 : ∀ (y : S2000x128.Idx) (i : S50000x128.Idx), (i 0).val = k * 2000 + (y 0).val → (i 1).val = (y 1).val → x1 y = A1 i)
    (h2 : x2 = A2) (h3 : x3 = A3)
    (y : S2000x128.Idx) (i : S50000x128.Idx) (hi0 : (i 0).val = k * 2000 + (y 0).val) (hi1 : (i 1).val = (y 1).val) :
    k0_pay1 (F := Ideal) x0 x1 x2 x3 y = Cert.Sage.hidden A0 A1 A2 A3 i := by
  subst h2 h3
  obtain ⟨p, j, rfl⟩ : ∃ (p : Fin 2000) (j : Fin 128), y = ix2 p j := ⟨y 0, y 1, eq_ix2 y⟩
  obtain ⟨n, j', rfl⟩ : ∃ (n : Fin 50000) (j' : Fin 128), i = ix2 n j' := ⟨i 0, i 1, eq_ix2 i⟩
  have hj : j = j' := Fin.ext hi1.symm
  subst hj
  rw [pay0_apply, Cert.Sage.hidden_apply]
  unfold Cert.Sage.hiddenAt
  have e0 : ∀ q : Fin 128, x0 (ix2 p q) = A0 (ix2 n q) := fun q => h0 _ _ hi0 rfl
  have e1 : ∀ q : Fin 128, x1 (ix2 p q) = A1 (ix2 n q) := fun q => h1 _ _ hi0 rfl
  simp only [e0, e1]

/-- The second body's stored value at `y` of block `k` is the projected hidden activation at the array index `i` over it. -/
theorem block1_entry (A0 A1 : S50000x128.Idx → EReal) (A2 A3 : S128x128.Idx → EReal) (A4 : S128x64.Idx → EReal)
    (x0 x1 : Vec Ideal S2000x128 .f32) (x2 x3 : Vec Ideal S128x128 .bf16) (x4 : Vec Ideal S128x64 .bf16) (k : Nat)
    (h0 : ∀ (y : S2000x128.Idx) (i : S50000x128.Idx), (i 0).val = k * 2000 + (y 0).val → (i 1).val = (y 1).val → x0 y = A0 i)
    (h1 : ∀ (y : S2000x128.Idx) (i : S50000x128.Idx), (i 0).val = k * 2000 + (y 0).val → (i 1).val = (y 1).val → x1 y = A1 i)
    (h2 : x2 = A2) (h3 : x3 = A3) (h4 : x4 = A4)
    (y : S2000x64.Idx) (i : S50000x64.Idx) (hi0 : (i 0).val = k * 2000 + (y 0).val) (hi1 : (i 1).val = (y 1).val) :
    k1_pay1 (F := Ideal) x0 x1 x2 x3 x4 y = Cert.Sage.project (Cert.Sage.hidden A0 A1 A2 A3) A4 i := by
  subst h2 h3 h4
  obtain ⟨p, j, rfl⟩ : ∃ (p : Fin 2000) (j : Fin 64), y = ix2 p j := ⟨y 0, y 1, eq_ix2 y⟩
  obtain ⟨n, j', rfl⟩ : ∃ (n : Fin 50000) (j' : Fin 64), i = ix2 n j' := ⟨i 0, i 1, eq_ix2 i⟩
  have hj : j = j' := Fin.ext hi1.symm
  subst hj
  rw [pay1_apply, Cert.Sage.project_apply]
  unfold Cert.Sage.projectAt
  refine Finset.sum_congr rfl fun r _ => ?_
  refine congrArg (· * x4 (ix2 r j)) ?_
  rw [Cert.Sage.hidden_apply, Cert.Sage.hidden_apply]
  unfold Cert.Sage.hiddenAt
  have e0 : ∀ q : Fin 128, x0 (ix2 p q) = A0 (ix2 n q) := fun q => h0 _ _ hi0 rfl
  have e1 : ∀ q : Fin 128, x1 (ix2 p q) = A1 (ix2 n q) := fun q => h1 _ _ hi0 rfl
  simp only [e0, e1]

/-! ## Region 0: the hidden activations of all nodes -/

/-- The printed index maps over the grid: the row windows and the output sit on block `t`, the weight windows on block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A row window's block at `t` holds rows `2000·t + ·` of its array. -/
theorem rows0_0 (c : Dev nD) (t : Fin cfg0.N) (y : S2000x128.Idx) (i : S50000x128.Idx)
    (h0 : (i 0).val = t.val * 2000 + (y 0).val) (h1 : (i 1).val = (y 1).val) : iblk0 V c 0 t y = V c main_arg0 i := by
  obtain ⟨e00, e01, -⟩ := idx0 t
  show V c main_arg0 (((cfg0.win 0).blk t).view.emb y) = V c main_arg0 i
  refine congrArg (V c main_arg0) (funext fun a => Fin.ext ?_)
  match a with
  | ⟨0, _⟩ => show win0_0.index t (0 : Fin 2) * 2000 + 1 * (y 0).val = (i 0).val; omega
  | ⟨1, _⟩ => show win0_0.index t (1 : Fin 2) * 128 + 1 * (y 1).val = (i 1).val; omega

theorem rows0_1 (c : Dev nD) (t : Fin cfg0.N) (y : S2000x128.Idx) (i : S50000x128.Idx)
    (h0 : (i 0).val = t.val * 2000 + (y 0).val) (h1 : (i 1).val = (y 1).val) : iblk0 V c 1 t y = V c main_v9 i := by
  obtain ⟨-, -, e10, e11, -⟩ := idx0 t
  show V c main_v9 (((cfg0.win 1).blk t).view.emb y) = V c main_v9 i
  refine congrArg (V c main_v9) (funext fun a => Fin.ext ?_)
  match a with
  | ⟨0, _⟩ => show win0_1.index t (0 : Fin 2) * 2000 + 1 * (y 0).val = (i 0).val; omega
  | ⟨1, _⟩ => show win0_1.index t (1 : Fin 2) * 128 + 1 * (y 1).val = (i 1).val; omega

/-- A weight window's block is its whole array. -/
theorem whole0_2 (c : Dev nD) (t : Fin cfg0.N) : iblk0 V c 2 t = V c main_v12 := by
  obtain ⟨-, -, -, -, e20, e21, -⟩ := idx0 t
  funext y
  show V c main_v12 (((cfg0.win 2).blk t).view.emb y) = V c main_v12 y
  refine congrArg (V c main_v12) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem whole0_3 (c : Dev nD) (t : Fin cfg0.N) : iblk0 V c 3 t = V c main_v15 := by
  obtain ⟨-, -, -, -, -, -, e30, e31, -⟩ := idx0 t
  funext y
  show V c main_v15 (((cfg0.win 3).blk t).view.emb y) = V c main_v15 y
  refine congrArg (V c main_v15) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- What point `t` writes back is block `t` of the hidden activations of the arrays the region finds. -/
theorem flushed0_eq (c : Dev nD) (t : Fin cfg0.N) :
    (dat0 V c).flushed 4 t = ((cfg0.win 4).blk t).view.read (Elt Ideal)
      (Cert.Sage.hidden (V c main_arg0) (V c main_v9) (V c main_v12) (V c main_v15)) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x128) hz]
  obtain ⟨-, -, -, -, -, -, -, -, e40, e41⟩ := idx0 t
  funext y
  refine block0_entry (V c main_arg0) (V c main_v9) (V c main_v12) (V c main_v15) _ _ _ _ t.val
    (rows0_0 V c t) (rows0_1 V c t) (whole0_2 V c t) (whole0_3 V c t) y _ ?_ ?_
  · show win0_4.index t (0 : Fin 2) * 2000 + 1 * (y 0).val = t.val * 2000 + (y 0).val; omega
  · show win0_4.index t (1 : Fin 2) * 128 + 1 * (y 1).val = (y 1).val; omega

/-- An index of the output array is in point `t`'s block iff each coordinate is in the block's range on its axis. -/
theorem mem_blk0 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v16).slice (win0_4.rect t)).set ↔ _
  rw [View.set_slice_whole, Rect.mem_set_unit]
  exact Iff.rfl

/-- The 25 blocks of 2000 rows tile the output array: row `r` is in block `r / 2000`. -/
theorem cover0 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have ht : (i 0).val / 2000 < cfg0.N := by show (i 0).val / 2000 < 25; omega
  obtain ⟨-, -, -, -, -, -, -, -, e40, e41⟩ := idx0 ⟨(i 0).val / 2000, ht⟩
  refine ⟨⟨(i 0).val / 2000, ht⟩, flush0_4 _, ?_⟩
  rw [mem_blk0]
  intro a
  match a with
  | ⟨0, _⟩ =>
    show win0_4.index ⟨(i 0).val / 2000, ht⟩ (0 : Fin 2) * 2000 ≤ (i 0).val ∧ (i 0).val < win0_4.index ⟨(i 0).val / 2000, ht⟩ (0 : Fin 2) * 2000 + 2000
    have : (⟨(i 0).val / 2000, ht⟩ : Fin cfg0.N).val = (i 0).val / 2000 := rfl
    omega
  | ⟨1, _⟩ =>
    show win0_4.index ⟨(i 0).val / 2000, ht⟩ (1 : Fin 2) * 128 ≤ (i 1).val ∧ (i 1).val < win0_4.index ⟨(i 0).val / 2000, ht⟩ (1 : Fin 2) * 128 + 128
    omega

/-- The first region's output array after its write-backs: the hidden activations of the arrays it finds at entry. -/
theorem final0 (c : Dev nD) :
    (dat0 V c).arrAt 4 cfg0.N = Cert.Sage.hidden (V c main_arg0) (V c main_v9) (V c main_v12) (V c main_v15) :=
  (dat0 V c).arrAt_eq_of_cover 4 _ (fun t _ => flushed0_eq V c t) cover0

/-! ## Region 1: the projected hidden activations of the chosen nodes -/

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem rows1_0 (c : Dev nD) (t : Fin cfg1.N) (y : S2000x128.Idx) (i : S50000x128.Idx)
    (h0 : (i 0).val = t.val * 2000 + (y 0).val) (h1 : (i 1).val = (y 1).val) : iblk1 V c 0 t y = V c main_v30 i := by
  obtain ⟨e00, e01, -⟩ := idx1 t
  show V c main_v30 (((cfg1.win 0).blk t).view.emb y) = V c main_v30 i
  refine congrArg (V c main_v30) (funext fun a => Fin.ext ?_)
  match a with
  | ⟨0, _⟩ => show win1_0.index t (0 : Fin 2) * 2000 + 1 * (y 0).val = (i 0).val; omega
  | ⟨1, _⟩ => show win1_0.index t (1 : Fin 2) * 128 + 1 * (y 1).val = (i 1).val; omega

theorem rows1_1 (c : Dev nD) (t : Fin cfg1.N) (y : S2000x128.Idx) (i : S50000x128.Idx)
    (h0 : (i 0).val = t.val * 2000 + (y 0).val) (h1 : (i 1).val = (y 1).val) : iblk1 V c 1 t y = V c main_v40 i := by
  obtain ⟨-, -, e10, e11, -⟩ := idx1 t
  show V c main_v40 (((cfg1.win 1).blk t).view.emb y) = V c main_v40 i
  refine congrArg (V c main_v40) (funext fun a => Fin.ext ?_)
  match a with
  | ⟨0, _⟩ => show win1_1.index t (0 : Fin 2) * 2000 + 1 * (y 0).val = (i 0).val; omega
  | ⟨1, _⟩ => show win1_1.index t (1 : Fin 2) * 128 + 1 * (y 1).val = (i 1).val; omega

theorem whole1_2 (c : Dev nD) (t : Fin cfg1.N) : iblk1 V c 2 t = V c main_v43 := by
  obtain ⟨-, -, -, -, e20, e21, -⟩ := idx1 t
  funext y
  show V c main_v43 (((cfg1.win 2).blk t).view.emb y) = V c main_v43 y
  refine congrArg (V c main_v43) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem whole1_3 (c : Dev nD) (t : Fin cfg1.N) : iblk1 V c 3 t = V c main_v46 := by
  obtain ⟨-, -, -, -, -, -, e30, e31, -⟩ := idx1 t
  funext y
  show V c main_v46 (((cfg1.win 3).blk t).view.emb y) = V c main_v46 y
  refine congrArg (V c main_v46) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem whole1_4 (c : Dev nD) (t : Fin cfg1.N) : iblk1 V c 4 t = V c main_v47 := by
  obtain ⟨-, -, -, -, -, -, -, -, e40, e41, -⟩ := idx1 t
  funext y
  show V c main_v47 (((cfg1.win 4).blk t).view.emb y) = V c main_v47 y
  refine congrArg (V c main_v47) (funext fun a => Fin.ext ?_)
  match a with
  | ⟨0, _⟩ => show win1_4.index t (0 : Fin 2) * 128 + 1 * (y 0).val = (y 0).val; omega
  | ⟨1, _⟩ => show win1_4.index t (1 : Fin 2) * 64 + 1 * (y 1).val = (y 1).val; omega

theorem flushed1_eq (c : Dev nD) (t : Fin cfg1.N) :
    (dat1 V c).flushed 5 t = ((cfg1.win 5).blk t).view.read (Elt Ideal)
      (Cert.Sage.project (Cert.Sage.hidden (V c main_v30) (V c main_v40) (V c main_v43) (V c main_v46)) (V c main_v47)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S128x64) hz]
  obtain ⟨-, -, -, -, -, -, -, -, -, -, e50, e51⟩ := idx1 t
  funext y
  refine block1_entry (V c main_v30) (V c main_v40) (V c main_v43) (V c main_v46) (V c main_v47) _ _ _ _ _ t.val
    (rows1_0 V c t) (rows1_1 V c t) (whole1_2 V c t) (whole1_3 V c t) (whole1_4 V c t) y _ ?_ ?_
  · show win1_5.index t (0 : Fin 2) * 2000 + 1 * (y 0).val = t.val * 2000 + (y 0).val; omega
  · show win1_5.index t (1 : Fin 2) * 64 + 1 * (y 1).val = (y 1).val; omega

theorem mem_blk1 (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v48).slice (win1_5.rect t)).set ↔ _
  rw [View.set_slice_whole, Rect.mem_set_unit]
  exact Iff.rfl

theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have ht : (i 0).val / 2000 < cfg1.N := by show (i 0).val / 2000 < 25; omega
  obtain ⟨-, -, -, -, -, -, -, -, -, -, e50, e51⟩ := idx1 ⟨(i 0).val / 2000, ht⟩
  refine ⟨⟨(i 0).val / 2000, ht⟩, flush1_5 _, ?_⟩
  rw [mem_blk1]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    have : (⟨(i 0).val / 2000, ht⟩ : Fin cfg1.N).val = (i 0).val / 2000 := rfl
    omega
  | ⟨1, _⟩ =>
    show win1_5.index ⟨(i 0).val / 2000, ht⟩ (1 : Fin 2) * 64 ≤ (i 1).val ∧ (i 1).val < win1_5.index ⟨(i 0).val / 2000, ht⟩ (1 : Fin 2) * 64 + 64
    omega

/-- The second region's output array after its write-backs: the projected hidden activations of the arrays it finds. -/
theorem final1 (c : Dev nD) :
    (dat1 V c).arrAt 5 cfg1.N
      = Cert.Sage.project (Cert.Sage.hidden (V c main_v30) (V c main_v40) (V c main_v43) (V c main_v46)) (V c main_v47) :=
  (dat1 V c).arrAt_eq_of_cover 5 _ (fun t _ => flushed1_eq V c t) cover1

end Cert.KernelIdeal.Regions

end
-- ==== Proof.Chain.lean ====
/-
  The host operations both programs share, as functions of their operands, and the result both programs compute.

  Three small chains recur.  An array of node numbers is first made non-negative (a negative number counts from the
  end: 50000 is added).  `mean x ix` gathers, for each node, the 16 rows of `x` its row of `ix` names, adds them and
  divides by 16.  `rows x a` gathers the row of `x` each entry of `a` names; `nidx ix a` gathers rows of the neighbour
  table the same way.  A weight of extents 128 × 256 is used through its two halves of 128 columns, each transposed.
  The result: the first layer's hidden activations of all nodes, re-gathered for the chosen nodes and for their
  neighbours' mean, through the second layer, projected to the output width.
-/
import proofs.«112767_j58420145160634_2_alg».proof.Proof.Gen.ReferenceIdeal
import proofs.«112767_j58420145160634_2_alg».proof.Proof.Sage

noncomputable section

namespace Cert.Chain

open Cert.ReferenceIdeal Cert.ReferenceIdeal.Gen Idealize.ShloMosaic

theorem slices_lo : (⟨2, ![128, 256]⟩ : Shape).Slices ![0, 0] ⟨2, ![128, 128]⟩ := by decide
theorem slices_hi : (⟨2, ![128, 256]⟩ : Shape).Slices ![0, 128] ⟨2, ![128, 128]⟩ := by decide
theorem transposes_sq : (⟨2, ![128, 128]⟩ : Shape).Transposes [1, 0] ⟨2, ![128, 128]⟩ := by decide
theorem bits_lt : FTy.bits .bf16 < FTy.bits .f32 := by decide

/-- Node numbers made non-negative, for a table of 16 neighbours per node, as gather start indices. -/
def norm16 (ix : IVec S50000x16 32) : IVec S50000x16x1 32 :=
  broadcastInDim S50000x16x1 ![0, 1] bcast_S50000x16_S50000x16x1_0_1
    (select (cmpi .slt ix (broadcastInDim S50000x16 ![] bcast_S_S50000x16 (constantI S_ 32 0#32)))
      (addi ix (broadcastInDim S50000x16 ![] bcast_S_S50000x16 (constantI S_ 32 50000#32))) ix)

/-- Node numbers made non-negative, one per node, as gather start indices. -/
def norm1 (a : IVec S50000 32) : IVec S50000x1 32 :=
  broadcastInDim S50000x1 ![0] bcast_S50000_S50000x1_0
    (select (cmpi .slt a (broadcastInDim S50000 ![] bcast_S_S50000 (constantI S_ 32 0#32)))
      (addi a (broadcastInDim S50000 ![] bcast_S_S50000 (constantI S_ 32 50000#32))) a)

/-- The mean over each node's 16 neighbours of the rows of `x`. -/
def mean (x : FVec Ideal S50000x128 .f32) (ix : IVec S50000x16 32) : FVec Ideal S50000x128 .f32 :=
  Host.divf
    (Host.reduceAdd (Host.gather gather_S50000x128_S50000x16x1_S50000x16x128_2_0_n_n_0_2_1128 x (norm16 ix))
      (constant S_ .f32 0x00000000#32) reducesTo_S50000x16x128_S50000x128_d1 h_S_)
    (broadcastInDim S50000x128 ![] bcast_S_S50000x128 (constant S_ .f32 0x41800000#32))

/-- The rows of `x` the node numbers `a` name. -/
def rows (x : FVec Ideal S50000x128 .f32) (a : IVec S50000 32) : FVec Ideal S50000x128 .f32 :=
  Host.gather gather_S50000x128_S50000x1_S50000x128_1_0_n_n_0_1_1128 x (norm1 a)

/-- The rows of the neighbour table the node numbers `a` name. -/
def nidx (ix : IVec S50000x16 32) (a : IVec S50000 32) : IVec S50000x16 32 :=
  Host.gather gather_S50000x16_S50000x1_S50000x16_1_0_n_n_0_1_116 ix (norm1 a)

/-- The first 128 columns of a weight, transposed. -/
def halfLo (W : FVec Ideal ⟨2, ![128, 256]⟩ .f32) : FVec Ideal ⟨2, ![128, 128]⟩ .bf16 :=
  truncf .bf16 (transpose ⟨2, ![128, 128]⟩ [1, 0] (extractStridedSlice ⟨2, ![128, 128]⟩ ![0, 0] W slices_lo) transposes_sq) bits_lt

/-- The last 128 columns of a weight, transposed. -/
def halfHi (W : FVec Ideal ⟨2, ![128, 256]⟩ .f32) : FVec Ideal ⟨2, ![128, 128]⟩ .bf16 :=
  truncf .bf16 (transpose ⟨2, ![128, 128]⟩ [1, 0] (extractStridedSlice ⟨2, ![128, 128]⟩ ![0, 128] W slices_hi) transposes_sq) bits_lt

/-- The first layer's hidden activations of all nodes. -/
def layer1 (a0 : FVec Ideal S50000x128 .f32) (a1 : FVec Ideal S128x256 .f32) (a4 : IVec S50000x16 32) : FVec Ideal S50000x128 .f32 :=
  Cert.Sage.hidden a0 (mean a0 a4) (halfLo a1) (halfHi a1)

/-- What both programs compute from the six arguments. -/
def result (a0 : FVec Ideal S50000x128 .f32) (a1 a2 : FVec Ideal S128x256 .f32) (a3 : FVec Ideal S128x64 .f32)
    (a4 : IVec S50000x16 32) (a5 : IVec S50000 32) : FVec Ideal S50000x64 .f32 :=
  Cert.Sage.project
    (Cert.Sage.hidden (rows (layer1 a0 a1 a4) a5) (mean (layer1 a0 a1 a4) (nidx a4 a5)) (halfLo a2) (halfHi a2)) a3

end Cert.Chain

end
-- ==== Proof.KernelHost.lean ====
/-
  The host stretches of the idealized kernel program, read at the buffers the two regions take, and the program's result.

  Before the first region the host computes the neighbour mean of the features and the two transposed halves of the
  first weight; between the regions it gathers, from the first region's output, the rows of the chosen nodes and the
  mean of their neighbours' rows, and cuts the second weight the same way; the last argument only changes float
  format.  Each stretch is a fold of its operations over the buffer contents it starts from, so each buffer a region
  takes is one of the shared chains applied to those contents.  Through the two regions' closed forms the program's
  result is then the shared result function of the six arguments.
-/
import proofs.«112767_j58420145160634_2_alg».proof.Proof.Gen.KernelIdeal.Frame
import proofs.«112767_j58420145160634_2_alg».proof.Proof.KernelRegions
import proofs.«112767_j58420145160634_2_alg».proof.Proof.Chain
import Idealize.ShloMosaic.Lib.StableHlo.Run

set_option maxRecDepth 16384

noncomputable section

namespace Cert.KernelIdeal.HostVals

open Cert.KernelIdeal Cert.KernelIdeal.Gen Idealize.ShloMosaic Idealize.ShloMosaic.TcCoe Idealize.SL.Sem
open Idealize.ShloMosaic.StableHlo

/-! ## The stretch before the first region, from any contents `W` -/

section Stretch0
variable (W : Valuation τ sig (Elt Ideal))

theorem pre_arg0 : after (hostOps0 (F := Ideal)) W (Proc.devRef .tc main_arg0) = W (Proc.devRef .tc main_arg0) := by
  after_results_simp

theorem pre_v9 : after (hostOps0 (F := Ideal)) W (Proc.devRef .tc main_v9)
    = Cert.Chain.mean (W (Proc.devRef .tc main_arg0)) (W (Proc.devRef .tc main_arg4)) := by
  after_results_simp
  rfl

theorem pre_v12 : after (hostOps0 (F := Ideal)) W (Proc.devRef .tc main_v12) = Cert.Chain.halfLo (W (Proc.devRef .tc main_arg1)) := by
  after_results_simp
  rfl

theorem pre_v15 : after (hostOps0 (F := Ideal)) W (Proc.devRef .tc main_v15) = Cert.Chain.halfHi (W (Proc.devRef .tc main_arg1)) := by
  after_results_simp
  rfl

theorem pre_arg1 : after (hostOps0 (F := Ideal)) W (Proc.devRef .tc main_arg1) = W (Proc.devRef .tc main_arg1) := by
  after_results_simp

theorem pre_arg2 : after (hostOps0 (F := Ideal)) W (Proc.devRef .tc main_arg2) = W (Proc.devRef .tc main_arg2) := by
  after_results_simp

theorem pre_arg3 : after (hostOps0 (F := Ideal)) W (Proc.devRef .tc main_arg3) = W (Proc.devRef .tc main_arg3) := by
  after_results_simp

theorem pre_arg4 : after (hostOps0 (F := Ideal)) W (Proc.devRef .tc main_arg4) = W (Proc.devRef .tc main_arg4) := by
  after_results_simp

theorem pre_arg5 : after (hostOps0 (F := Ideal)) W (Proc.devRef .tc main_arg5) = W (Proc.devRef .tc main_arg5) := by
  after_results_simp

end Stretch0

/-! ## The stretch between the regions, from any contents `W` -/

section Stretch1
variable (W : Valuation τ sig (Elt Ideal))

theorem mid_v30 : after (hostOps1 (F := Ideal)) W (Proc.devRef .tc main_v30)
    = Cert.Chain.rows (W (Proc.devRef .tc main_v16)) (W (Proc.devRef .tc main_arg5)) := by
  after_results_simp
  rfl

theorem mid_v40 : after (hostOps1 (F := Ideal)) W (Proc.devRef .tc main_v40)
    = Cert.Chain.mean (W (Proc.devRef .tc main_v16)) (Cert.Chain.nidx (W (Proc.devRef .tc main_arg4)) (W (Proc.devRef .tc main_arg5))) := by
  after_results_simp
  rfl

theorem mid_v43 : after (hostOps1 (F := Ideal)) W (Proc.devRef .tc main_v43) = Cert.Chain.halfLo (W (Proc.devRef .tc main_arg2)) := by
  after_results_simp
  rfl

theorem mid_v46 : after (hostOps1 (F := Ideal)) W (Proc.devRef .tc main_v46) = Cert.Chain.halfHi (W (Proc.devRef .tc main_arg2)) := by
  after_results_simp
  rfl

theorem mid_v47 : after (hostOps1 (F := Ideal)) W (Proc.devRef .tc main_v47)
    = (truncf .bf16 (W (Proc.devRef .tc main_arg3) : FVec Ideal S128x64 .f32) Cert.Chain.bits_lt : FVec Ideal S128x64 .bf16) := by
  after_results_simp

end Stretch1

/-! ## The program's buffers at the two region entries, and its result -/

variable (m : (ℓ : Loc nD τ sig) → Buf (Elt Ideal) ℓ) (ρ : Dev nD → PrngReg)

/-- The first region's output array: the first layer's hidden activations of all nodes. -/
theorem hidden_all (c : Dev nD) :
    (dat0 (V1 m ρ) c).arrAt 4 cfg0.N
      = Cert.Chain.layer1 (m ((c : Thread nD τ).loc main_arg0)) (m ((c : Thread nD τ).loc main_arg1)) (m ((c : Thread nD τ).loc main_arg4)) := by
  rw [Cert.KernelIdeal.Regions.final0]
  show Cert.Sage.hidden (after hostOps0 (W0 m ρ c) (Proc.devRef .tc main_arg0)) (after hostOps0 (W0 m ρ c) (Proc.devRef .tc main_v9))
      (after hostOps0 (W0 m ρ c) (Proc.devRef .tc main_v12)) (after hostOps0 (W0 m ρ c) (Proc.devRef .tc main_v15)) = _
  rw [pre_arg0, pre_v9, pre_v12, pre_v15]
  rfl

/-- An argument the first region does not stage is, at its exit, as launched. -/
theorem exit0_arg2 (c : Dev nD) : W2 m ρ c (Proc.devRef .tc main_arg2) = m ((c : Thread nD τ).loc main_arg2) :=
  (W2_of_ne m ρ c main_arg2 (by decide)).trans ((pre_arg2 (W0 m ρ c)).trans rfl)
theorem exit0_arg3 (c : Dev nD) : W2 m ρ c (Proc.devRef .tc main_arg3) = m ((c : Thread nD τ).loc main_arg3) :=
  (W2_of_ne m ρ c main_arg3 (by decide)).trans ((pre_arg3 (W0 m ρ c)).trans rfl)
theorem exit0_arg4 (c : Dev nD) : W2 m ρ c (Proc.devRef .tc main_arg4) = m ((c : Thread nD τ).loc main_arg4) :=
  (W2_of_ne m ρ c main_arg4 (by decide)).trans ((pre_arg4 (W0 m ρ c)).trans rfl)
theorem exit0_arg5 (c : Dev nD) : W2 m ρ c (Proc.devRef .tc main_arg5) = m ((c : Thread nD τ).loc main_arg5) :=
  (W2_of_ne m ρ c main_arg5 (by decide)).trans ((pre_arg5 (W0 m ρ c)).trans rfl)
/-- The first region's output array at its exit. -/
theorem exit0_v16 (c : Dev nD) : W2 m ρ c (Proc.devRef .tc main_v16) = (dat0 (V1 m ρ) c).arrAt 4 cfg0.N :=
  W2_arr m ρ c 4

/-- A change of float format of the projection's right operand changes nothing on the extended reals. -/
theorem project_truncf (H : S50000x128.Idx → EReal) (C : FVec Ideal S128x64 .f32) (h : FTy.bits .bf16 < FTy.bits .f32) :
    Cert.Sage.project H (truncf .bf16 C h : FVec Ideal S128x64 .bf16) = Cert.Sage.project H C := rfl

/-- THE RESULT: what the last boundary names for the result buffer is the shared result function of the arguments. -/
theorem kernel_value (c : Dev nD) :
    W4 m ρ c (Proc.devRef .tc main_v48)
      = Cert.Chain.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W4_arr m ρ c 5).trans ?_
  rw [Cert.KernelIdeal.Regions.final1]
  show Cert.Sage.project (Cert.Sage.hidden (after hostOps1 (W2 m ρ c) (Proc.devRef .tc main_v30)) (after hostOps1 (W2 m ρ c) (Proc.devRef .tc main_v40))
      (after hostOps1 (W2 m ρ c) (Proc.devRef .tc main_v43)) (after hostOps1 (W2 m ρ c) (Proc.devRef .tc main_v46)))
      (after hostOps1 (W2 m ρ c) (Proc.devRef .tc main_v47)) = _
  rw [mid_v30, mid_v40, mid_v43, mid_v46, mid_v47, exit0_v16, exit0_arg2, exit0_arg3, exit0_arg4, exit0_arg5, hidden_all, project_truncf]
  rfl

end Cert.KernelIdeal.HostVals

end
-- ==== Proof.RefLayer.lean ====
/-
  The hidden activations and the projection of one mean-aggregating graph layer, as array programs, are the
  entrywise formulas.

  The array program forms the hidden activations by joining the feature rows and the neighbour-mean rows side by
  side into rows of length 256, multiplying by the transposed weight and rectifying against a zero splat.  Entry
  (p, j) of that product is the sum over q < 256 of cat(p, q) · W(j, q), where cat(p, q) is X(p, q) for q < 128 and
  Y(p, q − 128) otherwise.  A sum over 256 = 128 + 128 indices is the sum of its two halves (a commutative-monoid
  fact, so it holds on the extended reals with no finiteness condition), which gives
  Σ_q X(p, q) · W(j, q) + Σ_q Y(p, q) · W(j, 128 + q).  The entrywise formula takes the two halves of the weight
  already cut out and transposed: entry (q, j) of the first transposed half is W(j, q), of the second W(j, 128 + q),
  and a change of number format is the identity on the extended reals.  The projection is a plain matrix product.
-/
import proofs.«112767_j58420145160634_2_alg».proof.Proof.Sage
import proofs.«112767_j58420145160634_2_alg».proof.Proof.LibPlainDot
import Idealize.ShloMosaic.Lib.Pipeline.Value
import Idealize.ShloMosaic.Lib.ValueIdx
import Idealize.ShloMosaic.PureOps.Ideal.Laws

noncomputable section

namespace Cert.Sage

open Idealize.ShloMosaic Idealize.ShloMosaic.ValueIdx

/-- A sum over 256 indices is the sum over the first 128 plus the sum over the last 128. -/
theorem sum_halves {M : Type*} [AddCommMonoid M] (f : Fin 256 → M) :
    ∑ q : Fin 256, f q
      = (∑ q : Fin 128, f ⟨q.val, Nat.lt_trans q.isLt (by decide)⟩)
        + ∑ q : Fin 128, f ⟨128 + q.val, Nat.add_lt_add_left q.isLt 128⟩ :=
  Fin.sum_univ_add (a := 128) (b := 128) f

/-- The joined rows at a column of the first half: the feature row. -/
theorem concat_left (X Y : FVec Ideal ⟨2, ![50000, 128]⟩ .f32)
    (hc : Shape.Concatenates [(⟨2, ![50000, 128]⟩ : Shape), ⟨2, ![50000, 128]⟩] ⟨2, ![50000, 256]⟩ 1)
    (p : Fin 50000) (q : Fin 128) :
    concatenate ⟨2, ![50000, 256]⟩ 1 [⟨⟨2, ![50000, 128]⟩, X⟩, ⟨⟨2, ![50000, 128]⟩, Y⟩] hc
        (ix2 p (⟨q.val, Nat.lt_trans q.isLt (by decide)⟩ : Fin 256)) = X (ix2 p q) :=
  concatenate_pair_apply_left 1 X Y hc _ rfl (ix2 p q) (fun b => match b with
    | ⟨0, _⟩ => rfl
    | ⟨1, _⟩ => rfl)

/-- The joined rows at a column of the second half: the neighbour-mean row, 128 columns back. -/
theorem concat_right (X Y : FVec Ideal ⟨2, ![50000, 128]⟩ .f32)
    (hc : Shape.Concatenates [(⟨2, ![50000, 128]⟩ : Shape), ⟨2, ![50000, 128]⟩] ⟨2, ![50000, 256]⟩ 1)
    (p : Fin 50000) (q : Fin 128) :
    concatenate ⟨2, ![50000, 256]⟩ 1 [⟨⟨2, ![50000, 128]⟩, X⟩, ⟨⟨2, ![50000, 128]⟩, Y⟩] hc
        (ix2 p (⟨128 + q.val, Nat.add_lt_add_left q.isLt 128⟩ : Fin 256)) = Y (ix2 p q) :=
  concatenate_pair_apply_right 1 X Y hc _ rfl rfl (ix2 p q)
    (fun b hb => match b, hb with
      | ⟨0, _⟩, _ => rfl
      | ⟨1, _⟩, hb => absurd (Fin.ext rfl) hb)
    (by show q.val + 128 = 128 + q.val; omega)

/-- The transposed weight at (q, j) is the weight at (j, q). -/
theorem weightT_apply (W : FVec Ideal ⟨2, ![128, 256]⟩ .f32)
    (ht : (⟨2, ![128, 256]⟩ : Shape).Transposes [1, 0] ⟨2, ![256, 128]⟩) (q : Fin 256) (j : Fin 128) :
    transpose ⟨2, ![256, 128]⟩ [1, 0] W ht (ix2 q j) = W (ix2 j q) :=
  transpose_apply [1, 0] W ht (ix2 q j) (ix2 j q) (fun b => match b with
    | ⟨0, _⟩ => rfl
    | ⟨1, _⟩ => rfl)

/-- The first half of the weight's columns, cut out, transposed and changed in format, at (q, j): W(j, q). -/
theorem halfA_apply (W : FVec Ideal ⟨2, ![128, 256]⟩ .f32)
    (hs0 : (⟨2, ![128, 256]⟩ : Shape).Slices ![0, 0] ⟨2, ![128, 128]⟩)
    (ht' : (⟨2, ![128, 128]⟩ : Shape).Transposes [1, 0] ⟨2, ![128, 128]⟩) (hbits : FTy.bits .bf16 < FTy.bits .f32)
    (q j : Fin 128) :
    truncf .bf16 (transpose ⟨2, ![128, 128]⟩ [1, 0] (extractStridedSlice ⟨2, ![128, 128]⟩ ![0, 0] W hs0) ht') hbits (ix2 q j)
      = W (ix2 j (⟨q.val, Nat.lt_trans q.isLt (by decide)⟩ : Fin 256)) := by
  refine (truncf_apply _ hbits _).trans ?_
  refine (transpose_apply [1, 0] _ ht' (ix2 q j) (ix2 j q) (fun b => match b with
    | ⟨0, _⟩ => rfl
    | ⟨1, _⟩ => rfl)).trans ?_
  exact extractStridedSlice_apply ![0, 0] W hs0 (ix2 j q) (ix2 j (⟨q.val, Nat.lt_trans q.isLt (by decide)⟩ : Fin 256))
    (fun a => match a with
      | ⟨0, _⟩ => by show j.val = 0 + j.val; omega
      | ⟨1, _⟩ => by show q.val = 0 + q.val; omega)

/-- The second half of the weight's columns, cut out, transposed and changed in format, at (q, j): W(j, 128 + q). -/
theorem halfB_apply (W : FVec Ideal ⟨2, ![128, 256]⟩ .f32)
    (hs1 : (⟨2, ![128, 256]⟩ : Shape).Slices ![0, 128] ⟨2, ![128, 128]⟩)
    (ht' : (⟨2, ![128, 128]⟩ : Shape).Transposes [1, 0] ⟨2, ![128, 128]⟩) (hbits : FTy.bits .bf16 < FTy.bits .f32)
    (q j : Fin 128) :
    truncf .bf16 (transpose ⟨2, ![128, 128]⟩ [1, 0] (extractStridedSlice ⟨2, ![128, 128]⟩ ![0, 128] W hs1) ht') hbits (ix2 q j)
      = W (ix2 j (⟨128 + q.val, Nat.add_lt_add_left q.isLt 128⟩ : Fin 256)) := by
  refine (truncf_apply _ hbits _).trans ?_
  refine (transpose_apply [1, 0] _ ht' (ix2 q j) (ix2 j q) (fun b => match b with
    | ⟨0, _⟩ => rfl
    | ⟨1, _⟩ => rfl)).trans ?_
  exact extractStridedSlice_apply ![0, 128] W hs1 (ix2 j q) (ix2 j (⟨128 + q.val, Nat.add_lt_add_left q.isLt 128⟩ : Fin 256))
    (fun a => match a with
      | ⟨0, _⟩ => by show j.val = 0 + j.val; omega
      | ⟨1, _⟩ => by show 128 + q.val = 128 + q.val; rfl)

/-- The zero splat reads 0 everywhere. -/
theorem zeroSplat_apply (hb : (⟨0, ![]⟩ : Shape).BroadcastsInDim ⟨2, ![50000, 128]⟩ (![] : Fin 0 → Fin 2))
    (i : (⟨2, ![50000, 128]⟩ : Shape).Idx) :
    broadcastInDim ⟨2, ![50000, 128]⟩ ![] hb (constant (F := Ideal) ⟨0, ![]⟩ .f32 0x00000000#32) i = (0 : EReal) :=
  (broadcastInDim_apply _ hb (constant (F := Ideal) ⟨0, ![]⟩ .f32 0x00000000#32) i ix0 (fun a => a.elim0)).trans
    ((constant_apply _ _).trans Ideal.ofBits_zero_f32)

/-- The product of the joined rows with the transposed weight, at (p, j): the two half sums. -/
theorem dot_concat_apply (D : DotDims ⟨2, ![50000, 256]⟩ ⟨2, ![256, 128]⟩ ⟨2, ![50000, 128]⟩) (hD : D = DotDims.plain 50000 256 128)
    (X Y : FVec Ideal ⟨2, ![50000, 128]⟩ .f32) (W : FVec Ideal ⟨2, ![128, 256]⟩ .f32)
    (hc : Shape.Concatenates [(⟨2, ![50000, 128]⟩ : Shape), ⟨2, ![50000, 128]⟩] ⟨2, ![50000, 256]⟩ 1)
    (ht : (⟨2, ![128, 256]⟩ : Shape).Transposes [1, 0] ⟨2, ![256, 128]⟩) (p : Fin 50000) (j : Fin 128) :
    Host.dotGeneral D none (concatenate ⟨2, ![50000, 256]⟩ 1 [⟨⟨2, ![50000, 128]⟩, X⟩, ⟨⟨2, ![50000, 128]⟩, Y⟩] hc)
        (transpose ⟨2, ![256, 128]⟩ [1, 0] W ht) (ix2 p j)
      = (∑ q : Fin 128, X (ix2 p q) * W (ix2 j (⟨q.val, Nat.lt_trans q.isLt (by decide)⟩ : Fin 256)))
        + ∑ q : Fin 128, Y (ix2 p q) * W (ix2 j (⟨128 + q.val, Nat.add_lt_add_left q.isLt 128⟩ : Fin 256)) := by
  refine (Cert.PlainDot.dotGeneral_ix2 D hD none _ _ p j).trans ?_
  refine (sum_halves _).trans ?_
  refine congrArg₂ (· + ·) (Finset.sum_congr rfl fun q _ => ?_) (Finset.sum_congr rfl fun q _ => ?_)
  · exact congrArg₂ (· * ·) (concat_left X Y hc p q) (weightT_apply W ht _ j)
  · exact congrArg₂ (· * ·) (concat_right X Y hc p q) (weightT_apply W ht _ j)

/-- The array program's hidden activations are the entrywise ones, at the two cut-out, transposed halves of the weight. -/
theorem hidden_of_concat (D : DotDims ⟨2, ![50000, 256]⟩ ⟨2, ![256, 128]⟩ ⟨2, ![50000, 128]⟩) (hD : D = DotDims.plain 50000 256 128)
    (X Y : FVec Ideal ⟨2, ![50000, 128]⟩ .f32) (W : FVec Ideal ⟨2, ![128, 256]⟩ .f32)
    (hc : Shape.Concatenates [(⟨2, ![50000, 128]⟩ : Shape), ⟨2, ![50000, 128]⟩] ⟨2, ![50000, 256]⟩ 1)
    (ht : (⟨2, ![128, 256]⟩ : Shape).Transposes [1, 0] ⟨2, ![256, 128]⟩)
    (hb : (⟨0, ![]⟩ : Shape).BroadcastsInDim ⟨2, ![50000, 128]⟩ (![] : Fin 0 → Fin 2))
    (hs0 : (⟨2, ![128, 256]⟩ : Shape).Slices ![0, 0] ⟨2, ![128, 128]⟩) (hs1 : (⟨2, ![128, 256]⟩ : Shape).Slices ![0, 128] ⟨2, ![128, 128]⟩)
    (ht' : (⟨2, ![128, 128]⟩ : Shape).Transposes [1, 0] ⟨2, ![128, 128]⟩) (hbits : FTy.bits .bf16 < FTy.bits .f32) :
    maximumf (Host.dotGeneral D none (concatenate ⟨2, ![50000, 256]⟩ 1 [⟨⟨2, ![50000, 128]⟩, X⟩, ⟨⟨2, ![50000, 128]⟩, Y⟩] hc) (transpose ⟨2, ![256, 128]⟩ [1, 0] W ht))
        (broadcastInDim ⟨2, ![50000, 128]⟩ ![] hb (constant (F := Ideal) ⟨0, ![]⟩ .f32 0x00000000#32))
      = hidden X Y (truncf .bf16 (transpose ⟨2, ![128, 128]⟩ [1, 0] (extractStridedSlice ⟨2, ![128, 128]⟩ ![0, 0] W hs0) ht') hbits)
                   (truncf .bf16 (transpose ⟨2, ![128, 128]⟩ [1, 0] (extractStridedSlice ⟨2, ![128, 128]⟩ ![0, 128] W hs1) ht') hbits) := by
  funext i
  obtain ⟨p, j, rfl⟩ : ∃ (p : Fin 50000) (j : Fin 128), i = ix2 p j := ⟨i 0, i 1, eq_ix2 i⟩
  refine (maximumf_apply _ _ _).trans ?_
  refine (congrArg₂ max (dot_concat_apply D hD X Y W hc ht p j) (zeroSplat_apply hb _)).trans ?_
  refine Eq.trans ?_ (hidden_apply X Y _ _ p j).symm
  refine congrArg (max · (0 : EReal)) (congrArg₂ (· + ·) (Finset.sum_congr rfl fun q _ => ?_) (Finset.sum_congr rfl fun q _ => ?_))
  · exact congrArg (X (ix2 p q) * ·) (halfA_apply W hs0 ht' hbits q j).symm
  · exact congrArg (Y (ix2 p q) * ·) (halfB_apply W hs1 ht' hbits q j).symm

/-- The array program's projection is the entrywise one. -/
theorem project_of_dot (D : DotDims ⟨2, ![50000, 128]⟩ ⟨2, ![128, 64]⟩ ⟨2, ![50000, 64]⟩) (hD : D = DotDims.plain 50000 128 64)
    (H : FVec Ideal ⟨2, ![50000, 128]⟩ .f32) (C : FVec Ideal ⟨2, ![128, 64]⟩ .f32) :
    Host.dotGeneral D none H C = project H C := by
  funext i
  obtain ⟨p, j, rfl⟩ : ∃ (p : Fin 50000) (j : Fin 64), i = ix2 p j := ⟨i 0, i 1, eq_ix2 i⟩
  exact (Cert.PlainDot.dotGeneral_ix2 D hD none H C p j).trans (project_apply H C p j).symm

end Cert.Sage

end
-- ==== Proof.RefValue.lean ====
/-
  The reference array program's result is the two-layer formula.

  The program's result is one long composed term of its six arguments.  It is built from one recurring piece, a
  rectified layer: join two arrays of rows side by side, multiply by a transposed weight, take the maximum with a
  zero splat.  Written with that piece and with the gathers and the neighbour mean by name, the term reads: the
  product with the last argument of the second layer, whose two row arrays are the first layer's activations
  gathered for the chosen nodes and the mean of those activations over the chosen nodes' neighbours.  Each
  rectified layer is the entrywise hidden-activation formula at the two transposed halves of its weight, and the
  last product is the entrywise projection; substituting these gives the stated result.
-/
import proofs.«112767_j58420145160634_2_alg».proof.Proof.Gen.ReferenceIdeal.Run
import proofs.«112767_j58420145160634_2_alg».proof.Proof.Chain
import proofs.«112767_j58420145160634_2_alg».proof.Proof.RefLayer

noncomputable section

namespace Cert.RefValue

open Cert.ReferenceIdeal Cert.ReferenceIdeal.Gen Idealize.ShloMosaic Idealize.ShloMosaic.TcCoe Idealize.SL.Sem

/-- One rectified layer as the array program writes it: rows joined side by side, times the transposed weight,
    maximum with the zero splat. -/
def reluLayer (X Y : FVec Ideal S50000x128 .f32) (W : FVec Ideal S128x256 .f32) : FVec Ideal S50000x128 .f32 :=
  maximumf
    (Host.dotGeneral dot_S50000x256_S256x128_S50000x128_1_0_0_1_n_n none
      (concatenate S50000x256 1 [⟨S50000x128, X⟩, ⟨S50000x128, Y⟩] concatenates_S50000x128_S50000x128_S50000x256_d1)
      (transpose S256x128 [1, 0] W transposes_S128x256_S256x128_1_0))
    (broadcastInDim S50000x128 ![] bcast_S_S50000x128 (constant S_ .f32 0x00000000#32))

/-- A rectified layer is the entrywise hidden-activation formula at the two transposed halves of its weight. -/
theorem reluLayer_eq (X Y : FVec Ideal S50000x128 .f32) (W : FVec Ideal S128x256 .f32) :
    reluLayer X Y W = Cert.Sage.hidden X Y (Cert.Chain.halfLo W) (Cert.Chain.halfHi W) :=
  Cert.Sage.hidden_of_concat dot_S50000x256_S256x128_S50000x128_1_0_0_1_n_n rfl X Y W
    concatenates_S50000x128_S50000x128_S50000x256_d1 transposes_S128x256_S256x128_1_0 bcast_S_S50000x128
    Cert.Chain.slices_lo Cert.Chain.slices_hi Cert.Chain.transposes_sq Cert.Chain.bits_lt

/-- The program's composed term over six arrays, written with the rectified layer, the gathers and the neighbour
    mean by name. -/
def composed (a0 : FVec Ideal S50000x128 .f32) (a1 a2 : FVec Ideal S128x256 .f32) (a3 : FVec Ideal S128x64 .f32)
    (a4 : IVec S50000x16 32) (a5 : IVec S50000 32) : FVec Ideal S50000x64 .f32 :=
  Host.dotGeneral dot_S50000x128_S128x64_S50000x64_1_0_0_1_n_n none
    (reluLayer (Cert.Chain.rows (reluLayer a0 (Cert.Chain.mean a0 a4) a1) a5)
      (Cert.Chain.mean (reluLayer a0 (Cert.Chain.mean a0 a4) a1) (Cert.Chain.nidx a4 a5)) a2)
    a3

/-- The composed term is the two-layer formula. -/
theorem composed_eq (a0 : FVec Ideal S50000x128 .f32) (a1 a2 : FVec Ideal S128x256 .f32) (a3 : FVec Ideal S128x64 .f32)
    (a4 : IVec S50000x16 32) (a5 : IVec S50000 32) :
    composed a0 a1 a2 a3 a4 a5 = Cert.Chain.result a0 a1 a2 a3 a4 a5 := by
  unfold composed Cert.Chain.result Cert.Chain.layer1
  rw [reluLayer_eq a0 (Cert.Chain.mean a0 a4) a1, reluLayer_eq _ _ a2]
  exact Cert.Sage.project_of_dot dot_S50000x128_S128x64_S50000x64_1_0_0_1_n_n rfl _ a3

set_option maxRecDepth 8192 in
/-- The program's result term is the composed term at the six arguments' contents: the same operations, named. -/
theorem res_eq_composed (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v42 (F := Ideal) m c
      = composed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  rfl

/-- The reference program's result is the two-layer formula at the six arguments' contents. -/
theorem ref_value (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v42 (F := Ideal) m c
      = Cert.Chain.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (res_eq_composed m c).trans (composed_eq _ _ _ _ _ _)

end Cert.RefValue

end
-- ==== Proof.lean ====
/-
  Both programs compute the same two-layer mean-aggregating graph network on the extended reals.

  The kernel program gathers and averages neighbour rows on the host, runs the first layer's two matrix products and
  rectifier in a pipelined region over 25 blocks of 2000 nodes, gathers again from that region's output, and runs the
  second layer and the output projection in a second region.  The reference joins each node's own row and its
  neighbours' mean into one row of 256 entries and multiplies by the whole transposed weight.  A sum over 256 terms
  is the sum of its two halves of 128 terms in any commutative monoid, so entry by entry the two agree with no
  appeal to finiteness; every gather, mean and index normalisation is the same operation on both sides.
  Each program's frame is its run with the result dropped; the idealization rewrote nothing.
-/
import proofs.«112767_j58420145160634_2_alg».proof.Defs
import proofs.«112767_j58420145160634_2_alg».proof.Proof.Gen.Kernel
import proofs.«112767_j58420145160634_2_alg».proof.Proof.Gen.Kernel.Frame
import proofs.«112767_j58420145160634_2_alg».proof.Proof.Gen.KernelIdeal
import proofs.«112767_j58420145160634_2_alg».proof.Proof.Gen.KernelIdeal.Frame
import proofs.«112767_j58420145160634_2_alg».proof.Proof.Gen.ReferenceIdeal
import proofs.«112767_j58420145160634_2_alg».proof.Proof.Gen.Pre_finite_inputs
import proofs.«112767_j58420145160634_2_alg».proof.Proof.Gen.ReferenceIdeal.Run
import proofs.«112767_j58420145160634_2_alg».proof.Proof.KernelRun
import proofs.«112767_j58420145160634_2_alg».proof.Proof.KernelHost
import proofs.«112767_j58420145160634_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the shared result function of them. -/
theorem algebraic : Cert.algebraic_KernelIdeal_ReferenceIdeal := by
  intro m ρ m' ρ' _ hagree
  refine ⟨fun c => Cert.Chain.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.HostVals.kernel_value m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.RefValue.ref_value, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
